-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S100000x32 : Shape := ⟨2, ![100000, 32]⟩
abbrev S10000x32 : Shape := ⟨2, ![10000, 32]⟩
abbrev S1700000x32 : Shape := ⟨2, ![1700000, 32]⟩
abbrev S1x32 : Shape := ⟨2, ![1, 32]⟩

abbrev nBuf : Space → Nat
  | .hbm => 91
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S1700000x1, .f32⟩
  | .hbm, ⟨47, _⟩ => ⟨S100000x64, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x32, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x32, .f32⟩
  | .hbm, ⟨79, _⟩ => ⟨S1700000x32, .f32⟩
  | .hbm, ⟨80, _⟩ => ⟨S1700000x32, .f32⟩
  | .hbm, ⟨81, _⟩ => ⟨S_, .f32⟩
  | .hbm, ⟨82, _⟩ => ⟨S100000x32, .f32⟩
  | .hbm, ⟨83, _⟩ => ⟨S1700000x1, .i32⟩
  | .hbm, ⟨84, _⟩ => ⟨S100000x32, .f32⟩
  | .hbm, ⟨85, _⟩ => ⟨S1x32, .f32⟩
  | .hbm, ⟨86, _⟩ => ⟨S100000x32, .f32⟩
  | .hbm, ⟨87, _⟩ => ⟨S100000x32, .f32⟩
  | .hbm, ⟨88, _⟩ => ⟨S_, .f32⟩
  | .hbm, ⟨89, _⟩ => ⟨S100000x32, .f32⟩
  | .hbm, ⟨90, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x32, .f32⟩
  | .local _ .vmem, ⟨8, _⟩ => ⟨S10000x32, .f32⟩
  | .local _ .vmem, ⟨9, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call2_cst : Ref sig .tc := ⟨.hbm, 88, rfl⟩
abbrev main_call2_v0 : Ref sig .tc := ⟨.hbm, 89, rfl⟩
abbrev main_v64 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x64, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x32, .f32⟩
  | .hbm, ⟨70, _⟩ => ⟨S_, .f32⟩
  | .hbm, ⟨71, _⟩ => ⟨S1700000, .f32⟩
  | .hbm, ⟨72, _⟩ => ⟨S_, .f32⟩
  | .hbm, ⟨73, _⟩ => ⟨S100000, .f32⟩
  | .hbm, ⟨74, _⟩ => ⟨S1700000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000, .f32⟩
  | .hbm, ⟨102, _⟩ => ⟨S1700000, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x32, .f32⟩
  | .hbm, ⟨112, _⟩ => ⟨S1700000x1, .f32⟩
  | .hbm, ⟨113, _⟩ => ⟨S1700000x32, .f32⟩
  | .hbm, ⟨114, _⟩ => ⟨S1700000x32, .f32⟩
  | .hbm, ⟨115, _⟩ => ⟨S_, .f32⟩
  | .hbm, ⟨116, _⟩ => ⟨S100000x32, .f32⟩
  | .hbm, ⟨117, _⟩ => ⟨S1700000x1, .i32⟩
  | .hbm, ⟨118, _⟩ => ⟨S100000x32, .f32⟩
  | .hbm, ⟨119, _⟩ => ⟨S1x32, .f32⟩
  | .hbm, ⟨120, _⟩ => ⟨S100000x32, .f32⟩
  | .hbm, ⟨121, _⟩ => ⟨S100000x32, .f32⟩
  | .hbm, ⟨122, _⟩ => ⟨S_, .f32⟩
  | .hbm, ⟨123, _⟩ => ⟨S100000x32, .f32⟩
  | .hbm, ⟨124, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_call3_cst : Ref sig .tc := ⟨.hbm, 122, rfl⟩
abbrev main_call3_v0 : Ref sig .tc := ⟨.hbm, 123, rfl⟩
abbrev main_v88 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.Spec.lean ====
/-
  The graph convolution's host side, named once.

  Both programs apply the same host operations around their two matrix products: the edge list's two rows with
  the self loops appended (source and destination node of every edge), each node's in-degree as a scatter-add of
  ones, its inverse square root where the degree is positive and zero elsewhere, the edge weight
  dinv(src) · dinv(dst), and per layer: the transformed features gathered at the source nodes, scaled by the edge
  weight, scatter-added at the destination nodes, the bias added, and the maximum with zero.  Here each of these
  is ONE function of its operands, so that the certificate compares the two programs through the same functions
  and never opens a gather or a scatter-add.
-/
import proofs.«131801_j80934363726496_2_alg».proof.Proof.Gen.KernelIdeal

noncomputable section

namespace Cert.Gcn

open Idealize.ShloMosaic Cert.KernelIdeal Cert.KernelIdeal.Gen

variable {F : FTy → Type} [FloatOps F]

/-- Row `0` of the edge list followed by the node numbers: the source node of every edge and self loop. -/
def srcOf (e : (⟨S2x1600000, .i32⟩ : BufTy).Contents (Elt F)) : (⟨S1700000, .i32⟩ : BufTy).Contents (Elt F) :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

/-- Row `1` of the edge list followed by the node numbers: the destination node of every edge and self loop. -/
def dstOf (e : (⟨S2x1600000, .i32⟩ : BufTy).Contents (Elt F)) : (⟨S1700000, .i32⟩ : BufTy).Contents (Elt F) :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- A list of node numbers as a one-column table of row numbers, a negative number counted from the end. -/
def rowsOf (i : (⟨S1700000, .i32⟩ : BufTy).Contents (Elt F)) : (⟨S1700000x1, .i32⟩ : BufTy).Contents (Elt F) :=
  broadcastInDim S1700000x1 ![0] bcast_S1700000_S1700000x1_0
    (select (cmpi .slt i (broadcastInDim S1700000 ![] bcast_S_S1700000 (constantI S_ 32 0#32)))
      (addi i (broadcastInDim S1700000 ![] bcast_S_S1700000 (constantI S_ 32 100000#32))) i)

/-- Each node's in-degree: ones scatter-added at the destination nodes. -/
def degOf (d : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 d)
    (broadcastInDim S1700000 ![] bcast_S_S1700000 (constant S_ .f32 0x3F800000#32))

/-- Where the degree is positive. -/
def posOf (d : (⟨S1700000, .i32⟩ : BufTy).Contents (Elt F)) : (⟨S100000, .i1⟩ : BufTy).Contents (Elt F) :=
  cmpf .ogt (degOf d) (broadcastInDim S100000 ![] bcast_S_S100000 (constant S_ .f32 0x00000000#32))

/-- The inverse square root of the degree where the mask holds, zero elsewhere. -/
def dinvOf (pos : (⟨S100000, .i1⟩ : BufTy).Contents (Elt F)) (r : (⟨S100000, .f32⟩ : BufTy).Contents (Elt F))
    (z : (⟨S_, .f32⟩ : BufTy).Contents (Elt F)) : (⟨S100000, .f32⟩ : BufTy).Contents (Elt F) :=
  select pos r (broadcastInDim S100000 ![] bcast_S_S100000 (id z))

/-- Per edge: dinv at the source node times dinv at the destination node. -/
def edgeProd (dinv : (⟨S100000, .f32⟩ : BufTy).Contents (Elt F)) (s d : (⟨S1700000, .i32⟩ : BufTy).Contents (Elt F)) :
    (⟨S1700000, .f32⟩ : BufTy).Contents (Elt F) :=
  mulf (Host.gather gather_S100000_S1700000x1_S1700000_n_0_n_n_0_1_1 dinv (rowsOf s))
    (Host.gather gather_S100000_S1700000x1_S1700000_n_0_n_n_0_1_1 dinv (rowsOf d))

/-- A per-edge list as a one-column table. -/
def colOf (p : (⟨S1700000, .f32⟩ : BufTy).Contents (Elt F)) : (⟨S1700000x1, .f32⟩ : BufTy).Contents (Elt F) :=
  broadcastInDim S1700000x1 ![0] bcast_S1700000_S1700000x1_0 p

/-- The edge weights as a one-column table. -/
def weightOf (dinv : (⟨S100000, .f32⟩ : BufTy).Contents (Elt F)) (s d : (⟨S1700000, .i32⟩ : BufTy).Contents (Elt F)) :
    (⟨S1700000x1, .f32⟩ : BufTy).Contents (Elt F) :=
  colOf (edgeProd dinv s d)

/-- The edge weights from the edge list alone. -/
def normOf (e : (⟨S2x1600000, .i32⟩ : BufTy).Contents (Elt F)) : (⟨S1700000x1, .f32⟩ : BufTy).Contents (Elt F) :=
  weightOf (dinvOf (posOf (dstOf e)) (Host.rsqrt (degOf (dstOf e))) (constant S_ .f32 0x00000000#32)) (srcOf e) (dstOf e)

/-- The first layer's aggregation: rows of `h` gathered at the source nodes, scaled by the edge weights,
    scatter-added at the destination nodes; the bias added. -/
def agg64 (h : (⟨S100000x64, .f32⟩ : BufTy).Contents (Elt F)) (s d : (⟨S1700000, .i32⟩ : BufTy).Contents (Elt F))
    (w : (⟨S1700000x1, .f32⟩ : BufTy).Contents (Elt F)) (b : (⟨S64, .f32⟩ : BufTy).Contents (Elt F)) :
    (⟨S100000x64, .f32⟩ : BufTy).Contents (Elt F) :=
  addf (Host.scatterAdd scatter_S100000x64_S1700000x1_S1700000x64_1_0_0_1
      (broadcastInDim S100000x64 ![] bcast_S_S100000x64 (constant S_ .f32 0x00000000#32))
      (broadcastInDim S1700000x1 ![0] bcast_S1700000_S1700000x1_0 d)
      (mulf (Host.gather gather_S100000x64_S1700000x1_S1700000x64_1_0_n_n_0_1_164 h (rowsOf s))
        (broadcastInDim S1700000x64 ![0, 1] bcast_S1700000x1_S1700000x64_0_1 w)))
    (broadcastInDim S100000x64 ![0, 1] bcast_S1x64_S100000x64_0_1 (broadcastInDim S1x64 ![1] bcast_S64_S1x64_1 b))

/-- The maximum with zero, on the first layer's shape. -/
def relu64 (a : (⟨S100000x64, .f32⟩ : BufTy).Contents (Elt F)) : (⟨S100000x64, .f32⟩ : BufTy).Contents (Elt F) :=
  maximumf a (broadcastInDim S100000x64 ![] bcast_S_S100000x64 (constant S_ .f32 0x00000000#32))

/-- The second layer's aggregation. -/
def agg32 (h : (⟨S100000x32, .f32⟩ : BufTy).Contents (Elt F)) (s d : (⟨S1700000, .i32⟩ : BufTy).Contents (Elt F))
    (w : (⟨S1700000x1, .f32⟩ : BufTy).Contents (Elt F)) (b : (⟨S32, .f32⟩ : BufTy).Contents (Elt F)) :
    (⟨S100000x32, .f32⟩ : BufTy).Contents (Elt F) :=
  addf (Host.scatterAdd scatter_S100000x32_S1700000x1_S1700000x32_1_0_0_1
      (broadcastInDim S100000x32 ![] bcast_S_S100000x32 (constant S_ .f32 0x00000000#32))
      (broadcastInDim S1700000x1 ![0] bcast_S1700000_S1700000x1_0 d)
      (mulf (Host.gather gather_S100000x32_S1700000x1_S1700000x32_1_0_n_n_0_1_132 h (rowsOf s))
        (broadcastInDim S1700000x32 ![0, 1] bcast_S1700000x1_S1700000x32_0_1 w)))
    (broadcastInDim S100000x32 ![0, 1] bcast_S1x32_S100000x32_0_1 (broadcastInDim S1x32 ![1] bcast_S32_S1x32_1 b))

/-- The maximum with zero, on the second layer's shape. -/
def relu32 (a : (⟨S100000x32, .f32⟩ : BufTy).Contents (Elt F)) : (⟨S100000x32, .f32⟩ : BufTy).Contents (Elt F) :=
  maximumf a (broadcastInDim S100000x32 ![] bcast_S_S100000x32 (constant S_ .f32 0x00000000#32))

/-- The whole network as a function of its two matrix-product functions and the argument arrays: both programs are
    this function, the kernel with its pipelined products and the reference with the host's. -/
def gcn
    (P1 : (⟨S100000x128, .f32⟩ : BufTy).Contents (Elt F) → (⟨S128x64, .f32⟩ : BufTy).Contents (Elt F) → (⟨S100000x64, .f32⟩ : BufTy).Contents (Elt F))
    (P2 : (⟨S100000x64, .f32⟩ : BufTy).Contents (Elt F) → (⟨S64x32, .f32⟩ : BufTy).Contents (Elt F) → (⟨S100000x32, .f32⟩ : BufTy).Contents (Elt F))
    (x : (⟨S100000x128, .f32⟩ : BufTy).Contents (Elt F)) (e : (⟨S2x1600000, .i32⟩ : BufTy).Contents (Elt F))
    (w1 : (⟨S128x64, .f32⟩ : BufTy).Contents (Elt F)) (b1 : (⟨S64, .f32⟩ : BufTy).Contents (Elt F))
    (w2 : (⟨S64x32, .f32⟩ : BufTy).Contents (Elt F)) (b2 : (⟨S32, .f32⟩ : BufTy).Contents (Elt F)) :
    (⟨S100000x32, .f32⟩ : BufTy).Contents (Elt F) :=
  relu32 (agg32 (P2 (relu64 (agg64 (P1 x w1) (srcOf e) (dstOf e) (normOf e) b1)) w2) (srcOf e) (dstOf e) (normOf e) b2)

end Cert.Gcn

end
-- ==== Proof.Stretch0.lean ====
/-
  The host operations before the first matrix product, read at the buffers the rest of the program uses:
  the source and destination node of every edge and the edge weights.  Each stretch of operations is read from
  ANY starting contents `V`: its results are functions of the buffers it reads, whatever wrote those.
-/
import proofs.«131801_j80934363726496_2_alg».proof.Proof.Gen.KernelIdeal.Launch
import proofs.«131801_j80934363726496_2_alg».proof.Proof.Spec
import Idealize.ShloMosaic.Lib.StableHlo.Run

noncomputable section

namespace Cert.Gcn.K

open Idealize.ShloMosaic Idealize.ShloMosaic.StableHlo Cert.KernelIdeal Cert.KernelIdeal.Gen Cert.Gcn

variable {F : FTy → Type} [FloatOps F]

/-! ## The first stretch: the index lists, the degree mask and the inverse square root -/

theorem s0_src (V : Valuation τ sig (Elt F)) :
    after hostOps0 V (Proc.devRef .tc main_v3) = srcOf (V (Proc.devRef .tc main_arg1)) := by
  unfold srcOf; after_results; rfl

theorem s0_dst (V : Valuation τ sig (Elt F)) :
    after hostOps0 V (Proc.devRef .tc main_v6) = dstOf (V (Proc.devRef .tc main_arg1)) := by
  unfold dstOf; after_results; rfl

theorem s0_pos (V : Valuation τ sig (Elt F)) :
    after hostOps0 V (Proc.devRef .tc main_v12) = posOf (dstOf (V (Proc.devRef .tc main_arg1))) := by
  unfold posOf degOf dstOf; after_results; rfl

theorem s0_rsqrt (V : Valuation τ sig (Elt F)) :
    after hostOps0 V (Proc.devRef .tc main_v13) = Host.rsqrt (degOf (dstOf (V (Proc.devRef .tc main_arg1)))) := by
  unfold degOf dstOf; after_results; rfl

theorem s0_zero (V : Valuation τ sig (Elt F)) :
    after hostOps0 V (Proc.devRef .tc main_cst_2) = constant S_ .f32 0x00000000#32 := by
  after_results

/-! ## The second stretch: the inverse square root kept where the degree is positive -/

theorem s1_dinv (V : Valuation τ sig (Elt F)) :
    after hostOps0_1 V (Proc.devRef .tc main_v14)
      = dinvOf (V (Proc.devRef .tc main_v12)) (V (Proc.devRef .tc main_v13)) (V (Proc.devRef .tc main_cst_2)) := by
  unfold dinvOf; after_results; rfl

theorem s1_src (V : Valuation τ sig (Elt F)) :
    after hostOps0_1 V (Proc.devRef .tc main_v3) = V (Proc.devRef .tc main_v3) := by after_results
theorem s1_dst (V : Valuation τ sig (Elt F)) :
    after hostOps0_1 V (Proc.devRef .tc main_v6) = V (Proc.devRef .tc main_v6) := by after_results

/-! ## The third stretch: the edge weights -/

set_option maxHeartbeats 4000000 in
theorem s2_weight (V : Valuation τ sig (Elt F)) :
    after hostOps0_2 V (Proc.devRef .tc main_v30)
      = weightOf (V (Proc.devRef .tc main_v14)) (V (Proc.devRef .tc main_v3)) (V (Proc.devRef .tc main_v6)) := by
  unfold weightOf colOf edgeProd rowsOf; after_results_simp

theorem s2_src (V : Valuation τ sig (Elt F)) :
    after hostOps0_2 V (Proc.devRef .tc main_v3) = V (Proc.devRef .tc main_v3) := by after_results
theorem s2_dst (V : Valuation τ sig (Elt F)) :
    after hostOps0_2 V (Proc.devRef .tc main_v6) = V (Proc.devRef .tc main_v6) := by after_results

end Cert.Gcn.K

end
-- ==== Proof.Stretch1.lean ====
/-
  The host operations between the two matrix products: the first layer's aggregation and its maximum with zero,
  read from ANY starting contents `V` at the buffer the second product reads.
-/
import proofs.«131801_j80934363726496_2_alg».proof.Proof.Gen.KernelIdeal.Launch
import proofs.«131801_j80934363726496_2_alg».proof.Proof.Spec
import Idealize.ShloMosaic.Lib.StableHlo.Run

noncomputable section

namespace Cert.Gcn.K

open Idealize.ShloMosaic Idealize.ShloMosaic.StableHlo Cert.KernelIdeal Cert.KernelIdeal.Gen Cert.Gcn

variable {F : FTy → Type} [FloatOps F]

/-- The aggregation of the first product's rows along the edges, the bias added. -/
theorem s3_agg (V : Valuation τ sig (Elt F)) :
    after hostOps1 V (Proc.devRef .tc main_v46)
      = agg64 (V (Proc.devRef .tc main_v31)) (V (Proc.devRef .tc main_v3)) (V (Proc.devRef .tc main_v6))
          (V (Proc.devRef .tc main_v30)) (V (Proc.devRef .tc main_arg3)) := by
  unfold agg64 rowsOf; after_results_simp

/-- The maximum with zero. -/
theorem s4_relu (V : Valuation τ sig (Elt F)) :
    after hostOps1_1 V (Proc.devRef .tc main_v47) = relu64 (V (Proc.devRef .tc main_v46)) := by
  unfold relu64; after_results; rfl

end Cert.Gcn.K

end
-- ==== Proof.Stretch2.lean ====
/-
  The host operations after the second matrix product: the second layer's aggregation and its maximum with zero,
  read from ANY starting contents `V` at the result buffer.
-/
import proofs.«131801_j80934363726496_2_alg».proof.Proof.Gen.KernelIdeal.Launch
import proofs.«131801_j80934363726496_2_alg».proof.Proof.Spec
import Idealize.ShloMosaic.Lib.StableHlo.Run

noncomputable section

namespace Cert.Gcn.K

open Idealize.ShloMosaic Idealize.ShloMosaic.StableHlo Cert.KernelIdeal Cert.KernelIdeal.Gen Cert.Gcn

variable {F : FTy → Type} [FloatOps F]

/-- The aggregation of the second product's rows along the edges, the bias added. -/
theorem s5_agg (V : Valuation τ sig (Elt F)) :
    after hostOps2 V (Proc.devRef .tc main_v63)
      = agg32 (V (Proc.devRef .tc main_v48)) (V (Proc.devRef .tc main_v3)) (V (Proc.devRef .tc main_v6))
          (V (Proc.devRef .tc main_v30)) (V (Proc.devRef .tc main_arg5)) := by
  unfold agg32 rowsOf; after_results_simp

/-- The maximum with zero. -/
theorem s6_relu (V : Valuation τ sig (Elt F)) :
    after hostOps2_1 V (Proc.devRef .tc main_v64) = relu32 (V (Proc.devRef .tc main_v63)) := by
  unfold relu32; after_results; rfl

end Cert.Gcn.K

end
-- ==== Proof.Keep.lean ====
/-
  What each stretch of host operations leaves untouched: a stretch writes only its own results, so the argument
  arrays, the two index lists and the edge weights pass through every later stretch unchanged.  One statement per
  stretch and buffer that a later stretch or region reads, from ANY starting contents `V`.
-/
import proofs.«131801_j80934363726496_2_alg».proof.Proof.Gen.KernelIdeal.Launch
import Idealize.ShloMosaic.Lib.StableHlo.Run

noncomputable section

namespace Cert.Gcn.K

open Idealize.ShloMosaic Idealize.ShloMosaic.StableHlo Cert.KernelIdeal Cert.KernelIdeal.Gen

variable {F : FTy → Type} [FloatOps F]

theorem k0_arg0 (V : Valuation τ sig (Elt F)) :
    after hostOps0 V (Proc.devRef .tc main_arg0) = V (Proc.devRef .tc main_arg0) := by after_results
theorem k0_arg2 (V : Valuation τ sig (Elt F)) :
    after hostOps0 V (Proc.devRef .tc main_arg2) = V (Proc.devRef .tc main_arg2) := by after_results
theorem k0_arg3 (V : Valuation τ sig (Elt F)) :
    after hostOps0 V (Proc.devRef .tc main_arg3) = V (Proc.devRef .tc main_arg3) := by after_results
theorem k0_arg4 (V : Valuation τ sig (Elt F)) :
    after hostOps0 V (Proc.devRef .tc main_arg4) = V (Proc.devRef .tc main_arg4) := by after_results
theorem k0_arg5 (V : Valuation τ sig (Elt F)) :
    after hostOps0 V (Proc.devRef .tc main_arg5) = V (Proc.devRef .tc main_arg5) := by after_results
theorem k1_arg0 (V : Valuation τ sig (Elt F)) :
    after hostOps0_1 V (Proc.devRef .tc main_arg0) = V (Proc.devRef .tc main_arg0) := by after_results
theorem k1_arg2 (V : Valuation τ sig (Elt F)) :
    after hostOps0_1 V (Proc.devRef .tc main_arg2) = V (Proc.devRef .tc main_arg2) := by after_results
theorem k1_arg3 (V : Valuation τ sig (Elt F)) :
    after hostOps0_1 V (Proc.devRef .tc main_arg3) = V (Proc.devRef .tc main_arg3) := by after_results
theorem k1_arg4 (V : Valuation τ sig (Elt F)) :
    after hostOps0_1 V (Proc.devRef .tc main_arg4) = V (Proc.devRef .tc main_arg4) := by after_results
theorem k1_arg5 (V : Valuation τ sig (Elt F)) :
    after hostOps0_1 V (Proc.devRef .tc main_arg5) = V (Proc.devRef .tc main_arg5) := by after_results
theorem k2_arg0 (V : Valuation τ sig (Elt F)) :
    after hostOps0_2 V (Proc.devRef .tc main_arg0) = V (Proc.devRef .tc main_arg0) := by after_results
theorem k2_arg2 (V : Valuation τ sig (Elt F)) :
    after hostOps0_2 V (Proc.devRef .tc main_arg2) = V (Proc.devRef .tc main_arg2) := by after_results
theorem k2_arg3 (V : Valuation τ sig (Elt F)) :
    after hostOps0_2 V (Proc.devRef .tc main_arg3) = V (Proc.devRef .tc main_arg3) := by after_results
theorem k2_arg4 (V : Valuation τ sig (Elt F)) :
    after hostOps0_2 V (Proc.devRef .tc main_arg4) = V (Proc.devRef .tc main_arg4) := by after_results
theorem k2_arg5 (V : Valuation τ sig (Elt F)) :
    after hostOps0_2 V (Proc.devRef .tc main_arg5) = V (Proc.devRef .tc main_arg5) := by after_results
theorem k3_src (V : Valuation τ sig (Elt F)) :
    after hostOps1 V (Proc.devRef .tc main_v3) = V (Proc.devRef .tc main_v3) := by after_results
theorem k3_dst (V : Valuation τ sig (Elt F)) :
    after hostOps1 V (Proc.devRef .tc main_v6) = V (Proc.devRef .tc main_v6) := by after_results
theorem k3_weight (V : Valuation τ sig (Elt F)) :
    after hostOps1 V (Proc.devRef .tc main_v30) = V (Proc.devRef .tc main_v30) := by after_results
theorem k3_arg4 (V : Valuation τ sig (Elt F)) :
    after hostOps1 V (Proc.devRef .tc main_arg4) = V (Proc.devRef .tc main_arg4) := by after_results
theorem k3_arg5 (V : Valuation τ sig (Elt F)) :
    after hostOps1 V (Proc.devRef .tc main_arg5) = V (Proc.devRef .tc main_arg5) := by after_results
theorem k4_src (V : Valuation τ sig (Elt F)) :
    after hostOps1_1 V (Proc.devRef .tc main_v3) = V (Proc.devRef .tc main_v3) := by after_results
theorem k4_dst (V : Valuation τ sig (Elt F)) :
    after hostOps1_1 V (Proc.devRef .tc main_v6) = V (Proc.devRef .tc main_v6) := by after_results
theorem k4_weight (V : Valuation τ sig (Elt F)) :
    after hostOps1_1 V (Proc.devRef .tc main_v30) = V (Proc.devRef .tc main_v30) := by after_results
theorem k4_arg4 (V : Valuation τ sig (Elt F)) :
    after hostOps1_1 V (Proc.devRef .tc main_arg4) = V (Proc.devRef .tc main_arg4) := by after_results
theorem k4_arg5 (V : Valuation τ sig (Elt F)) :
    after hostOps1_1 V (Proc.devRef .tc main_arg5) = V (Proc.devRef .tc main_arg5) := by after_results

end Cert.Gcn.K

end
-- ==== Proof.LibMatmulNN.lean ====
/-
  A row-by-column matrix product read at an index, over the extended reals, for any record of dimension numbers.

  For dimension numbers that contract the left operand's second axis with the right operand's first (left
  operand M×K, right operand K×N, no batch axis) the sum over the record's contraction index is, at row r and
  column c, the sum over k < K of lhs(r, k) · rhs(k, c).  The record is a parameter and the operands are plain
  functions to the extended reals, so the lemma serves operands of any float formats; the record's coordinate
  facts are hypotheses, each closed by unfolding at a literal record.
-/
import Idealize.ShloMosaic.PureOps.Ideal.Laws
import Idealize.ShloMosaic.Lib.ValueIdx

noncomputable section

namespace LibMatmulNN

open Idealize.ShloMosaic Idealize.ShloMosaic.ValueIdx

/-- The sum a row-by-column product is, with the contraction index a plain number below K: for dimension numbers
    that contract the left operand's second axis with the right operand's first (no batch axis), the entry at
    (r, c) sums lhs(r, k) · rhs(k, c) over k < K. -/
theorem contr_sum {M K N : Nat} (D : DotDims ⟨2, ![M, K]⟩ ⟨2, ![K, N]⟩ ⟨2, ![M, N]⟩)
    (hr : D.contr.rank = 1) (hs : D.contr.size ⟨0, by omega⟩ = K)
    (hlc : D.lhsContracting = [1]) (hrc : D.rhsContracting = [0])
    (hl0 : ∀ (j : (⟨2, ![M, N]⟩ : Shape).Idx) (k : D.contr.Idx), (D.lhsIdx j k 0).val = (j 0).val)
    (hr1 : ∀ (j : (⟨2, ![M, N]⟩ : Shape).Idx) (k : D.contr.Idx), (D.rhsIdx j k 1).val = (j 1).val)
    (lhs : (⟨2, ![M, K]⟩ : Shape).Idx → EReal) (rhs : (⟨2, ![K, N]⟩ : Shape).Idx → EReal) (r : Fin M) (c : Fin N) :
    (∑ k : D.contr.Idx, lhs (D.lhsIdx (ix2 r c) k) * rhs (D.rhsIdx (ix2 r c) k))
      = ∑ k : Fin K, lhs (ix2 r k) * rhs (ix2 k c) := by
  rw [← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k :=
    funext fun a => Fin.ext (by
      match a with
      | ⟨0, _⟩ => exact hl0 _ _
      | ⟨1, _⟩ => exact (D.lhsIdx_val_of_single hlc (ix2 r c) _).trans hk)
  have er : D.rhsIdx (ix2 r c) ((contrEquiv1 D K hr hs).symm k) = ix2 k c :=
    funext fun a => Fin.ext (by
      match a with
      | ⟨0, _⟩ => exact (D.rhsIdx_val_of_single hrc (ix2 r c) _).trans hk
      | ⟨1, _⟩ => exact hr1 _ _)
  rw [el, er]

end LibMatmulNN

end
-- ==== Proof.Product.lean ====
/-
  The two matrix products of the kernel bodies, each read at an entry.

  A body loads a block of 10000 rows and the whole weight matrix, rounds both to bfloat16 (the identity on the
  extended reals), multiplies them into a zero accumulator and stores the product.  At row p and column q the
  stored value is the sum over the contracted axis k of block(p, k) · weight(k, q).
-/
import Idealize.ShloMosaic.PureOps.Ideal.Laws
import Idealize.ShloMosaic.Lib.ValueIdx
import Idealize.ShloMosaic.Lib.Pipeline.Value
import proofs.«131801_j80934363726496_2_alg».proof.Proof.Gen.KernelIdeal.Skeleton
import proofs.«131801_j80934363726496_2_alg».proof.Proof.LibMatmulNN

noncomputable section

namespace Cert.Gcn

open Idealize.ShloMosaic Idealize.ShloMosaic.ValueIdx

/-- Rows times columns over the extended reals: the entry at (r, c) is the sum over k of A(r, k) · B(k, c). -/
def mm {M K N : Nat} (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

/-- The product at an index whose coordinates are known. -/
theorem mm_apply_of {M K N : Nat} (A : (⟨2, ![M, K]⟩ : Shape).Idx → EReal) (B : (⟨2, ![K, N]⟩ : Shape).Idx → EReal)
    (i : (⟨2, ![M, N]⟩ : Shape).Idx) (r : Fin M) (c : Fin N) (h0 : (i 0).val = r.val) (h1 : (i 1).val = c.val) :
    mm A B i = ∑ k : Fin K, A (ix2 r k) * B (ix2 k c) := by
  obtain rfl : i = ix2 r c := funext fun a => Fin.ext (by
    match a with
    | ⟨0, _⟩ => exact h0
    | ⟨1, _⟩ => exact h1)
  rfl

namespace K

open Cert.KernelIdeal Cert.KernelIdeal.Gen

/-- The first body's stored value at (p, q): row p of the loaded block against column q of the first weight matrix. -/
theorem pay0_apply (x0 : Vec Ideal S10000x128 .f32) (x1 : Vec Ideal S128x64 .f32) (p : Fin 10000) (q : Fin 64) :
    k0_pay1 x0 x1 (ix2 p q) = ∑ k : Fin 128, x0 (ix2 p k) * x1 (ix2 k q) := by
  unfold k0_pay1
  refine (Ideal.matmul_constant_zero_apply dot_S10000x128_S128x64_S10000x64_1_0_0_1_n_n none _ _ (ix2 p q)).trans ?_
  exact LibMatmulNN.contr_sum dot_S10000x128_S128x64_S10000x64_1_0_0_1_n_n rfl rfl rfl rfl (fun _ _ => rfl) (fun _ _ => rfl) x0 x1 p q

/-- The second body's stored value at (p, q): row p of the loaded block against column q of the second weight matrix. -/
theorem pay1_apply (x0 : Vec Ideal S10000x64 .f32) (x1 : Vec Ideal S64x32 .f32) (p : Fin 10000) (q : Fin 32) :
    k1_pay1 x0 x1 (ix2 p q) = ∑ k : Fin 64, x0 (ix2 p k) * x1 (ix2 k q) := by
  unfold k1_pay1
  refine (Ideal.matmul_constant_zero_apply dot_S10000x64_S64x32_S10000x32_1_0_0_1_n_n none _ _ (ix2 p q)).trans ?_
  rw [shapeCast_self]
  exact LibMatmulNN.contr_sum dot_S10000x64_S64x32_S10000x32_1_0_0_1_n_n rfl rfl rfl rfl (fun _ _ => rfl) (fun _ _ => rfl) x0 x1 p q

end K

end Cert.Gcn

end
-- ==== Proof.Region0.lean ====
/-
  Region 0: what the pipelined matrix product leaves in its result array.

  The region cuts the left operand into ten blocks of 10000 rows; at block t the body multiplies rows
  10000·t … 10000·t + 9999 by the whole right operand and writes the product back to the same rows of the result.
  Row r of the result therefore holds row r of the left operand against the right operand: the result array is
  the product of the two whole arrays as the region finds them, whatever those are.
-/
import proofs.«131801_j80934363726496_2_alg».proof.Proof.Gen.KernelIdeal.Frame
import proofs.«131801_j80934363726496_2_alg».proof.Proof.Product
import Idealize.ShloMosaic.Lib.Pipeline.Value

noncomputable section

namespace Cert.Gcn.K.Region0

open Idealize.ShloMosaic Idealize.ShloMosaic.TcCoe Idealize.ShloMosaic.ValueIdx Idealize.SL.Sem
open Idealize.ShloMosaic.Pipeline (Dat)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the left operand and the result move down one block per point, the right
    operand stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` is rows 10000·t … of its array. -/
theorem lhs_block (c : Dev nD) (t : Fin cfg0.N) (x : S10000x128.Idx) (k : S100000x128.Idx)
    (hk0 : (k 0).val = 10000 * t.val + (x 0).val) (hk1 : (k 1).val = (x 1).val) :
    (iblk0 V c 0 t : Vec Ideal S10000x128 .f32) x = (V c main_arg0 : S100000x128.Idx → EReal) k := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 10000 + 1 * (x 0).val = (k 0).val; rw [e0, hk0]; omega
  | ⟨1, _⟩ => show win0_0.index t (1 : Fin 2) * 128 + 1 * (x 1).val = (k 1).val; rw [e1, hk1]; omega

/-- The right operand's block at every point is its whole array. -/
theorem rhs_block (c : Dev nD) (t : Fin cfg0.N) (x : S128x64.Idx) :
    (iblk0 V c 1 t : Vec Ideal S128x64 .f32) x = (V c main_arg2 : S128x64.Idx → EReal) x := by
  obtain ⟨-, -, e0, e1, -⟩ := idx_facts t
  unfold iblk0
  rw [View.read_apply]
  show V c main_arg2 _ = V c main_arg2 _
  congr 1
  funext a
  apply Fin.ext
  match a with
  | ⟨0, _⟩ => show win0_1.index t (0 : Fin 2) * 128 + 1 * (x 0).val = (x 0).val; rw [e0]; omega
  | ⟨1, _⟩ => show win0_1.index t (1 : Fin 2) * 64 + 1 * (x 1).val = (x 1).val; rw [e1]; omega

/-- What point `t` writes back is block `t` of the product of the two arrays as the region finds them. -/
theorem flushed_eq (c : Dev nD) (t : Fin cfg0.N) :
    (dat0 V c).flushed 2 t
      = ((cfg0.win 2).blk t).view.read (Elt Ideal) (mm (M := 100000) (K := 128) (N := 64) (V c main_arg0) (V c main_arg2)) := by
  obtain ⟨-, -, -, -, e0, e1⟩ := idx_facts t
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  funext y
  obtain ⟨p, q, rfl⟩ : ∃ (p : Fin 10000) (q : Fin 64), y = ix2 p q := ⟨y 0, y 1, eq_ix2 y⟩
  have ht : t.val < 10 := Nat.lt_of_lt_of_eq t.isLt N_0
  rw [View.read_apply]
  refine (pay0_apply _ _ p q).trans ?_
  refine Eq.trans ?_ (mm_apply_of (M := 100000) (K := 128) (N := 64) (V c main_arg0) (V c main_arg2) _
    ⟨10000 * t.val + p.val, by have := p.isLt; omega⟩ q ?_ ?_).symm
  · refine Finset.sum_congr rfl fun k _ => ?_
    rw [lhs_block V c t (ix2 p k) (ix2 ⟨10000 * t.val + p.val, by have := p.isLt; omega⟩ k) rfl rfl, rhs_block V c t (ix2 k q)]
  · show win0_2.index t (0 : Fin 2) * 10000 + 1 * p.val = 10000 * t.val + p.val; rw [e0]; omega
  · show win0_2.index t (1 : Fin 2) * 64 + 1 * q.val = q.val; rw [e1]; omega

/-- An index of the result array is in point `t`'s block iff each coordinate is in the block's range. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v31).slice (win0_2.rect t)).set ↔ _
  rw [View.set_slice_whole, Rect.mem_set_unit]
  exact Iff.rfl

/-- Every row of the result lies in the block of the point numbered by the row's quotient by 10000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  refine ⟨⟨(i 0).val / 10000, by rw [hN]; omega⟩, flush0_2 _, ?_⟩
  obtain ⟨-, -, -, -, e0, e1⟩ := idx_facts ⟨(i 0).val / 10000, by rw [hN]; omega⟩
  rw [mem_blk]
  intro a
  match a with
  | ⟨0, _⟩ => show win0_2.index _ (0 : Fin 2) * 10000 ≤ (i 0).val ∧ (i 0).val < win0_2.index _ (0 : Fin 2) * 10000 + 10000; rw [e0]; show (i 0).val / 10000 * 10000 ≤ _ ∧ _ < (i 0).val / 10000 * 10000 + 10000; omega
  | ⟨1, _⟩ => show win0_2.index _ (1 : Fin 2) * 64 ≤ (i 1).val ∧ (i 1).val < win0_2.index _ (1 : Fin 2) * 64 + 64; rw [e1]; omega

/-- The result array after the region: the product of the two arrays the region was entered with. -/
theorem result (c : Dev nD) :
    (dat0 V c).arrAt 2 cfg0.N = mm (M := 100000) (K := 128) (N := 64) (V c main_arg0) (V c main_arg2) :=
  (dat0 V c).arrAt_eq_of_cover 2 _ (fun t _ => flushed_eq V c t) (fun i => cover i)

end Cert.Gcn.K.Region0

end
-- ==== Proof.Region1.lean ====
/-
  Region 1: what the pipelined matrix product leaves in its result array.

  The region cuts the left operand into ten blocks of 10000 rows; at block t the body multiplies rows
  10000·t … 10000·t + 9999 by the whole right operand and writes the product back to the same rows of the result.
  Row r of the result therefore holds row r of the left operand against the right operand: the result array is
  the product of the two whole arrays as the region finds them, whatever those are.
-/
import proofs.«131801_j80934363726496_2_alg».proof.Proof.Gen.KernelIdeal.Frame
import proofs.«131801_j80934363726496_2_alg».proof.Proof.Product
import Idealize.ShloMosaic.Lib.Pipeline.Value

noncomputable section

namespace Cert.Gcn.K.Region1

open Idealize.ShloMosaic Idealize.ShloMosaic.TcCoe Idealize.ShloMosaic.ValueIdx Idealize.SL.Sem
open Idealize.ShloMosaic.Pipeline (Dat)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the left operand and the result move down one block per point, the right
    operand stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point `t` is rows 10000·t … of its array. -/
theorem lhs_block (c : Dev nD) (t : Fin cfg1.N) (x : S10000x64.Idx) (k : S100000x64.Idx)
    (hk0 : (k 0).val = 10000 * t.val + (x 0).val) (hk1 : (k 1).val = (x 1).val) :
    (iblk1 V c 0 t : Vec Ideal S10000x64 .f32) x = (V c main_v47 : S100000x64.Idx → EReal) k := by
  obtain ⟨e0, e1, -⟩ := idx_facts t
  unfold iblk1
  rw [View.read_apply]
  show V c main_v47 _ = V c main_v47 _
  congr 1
  funext a
  apply Fin.ext
  match a with
  | ⟨0, _⟩ => show win1_0.index t (0 : Fin 2) * 10000 + 1 * (x 0).val = (k 0).val; rw [e0, hk0]; omega
  | ⟨1, _⟩ => show win1_0.index t (1 : Fin 2) * 64 + 1 * (x 1).val = (k 1).val; rw [e1, hk1]; omega

/-- The right operand's block at every point is its whole array. -/
theorem rhs_block (c : Dev nD) (t : Fin cfg1.N) (x : S64x32.Idx) :
    (iblk1 V c 1 t : Vec Ideal S64x32 .f32) x = (V c main_arg4 : S64x32.Idx → EReal) x := by
  obtain ⟨-, -, e0, e1, -⟩ := idx_facts t
  unfold iblk1
  rw [View.read_apply]
  show V c main_arg4 _ = V c main_arg4 _
  congr 1
  funext a
  apply Fin.ext
  match a with
  | ⟨0, _⟩ => show win1_1.index t (0 : Fin 2) * 64 + 1 * (x 0).val = (x 0).val; rw [e0]; omega
  | ⟨1, _⟩ => show win1_1.index t (1 : Fin 2) * 32 + 1 * (x 1).val = (x 1).val; rw [e1]; omega

/-- What point `t` writes back is block `t` of the product of the two arrays as the region finds them. -/
theorem flushed_eq (c : Dev nD) (t : Fin cfg1.N) :
    (dat1 V c).flushed 2 t
      = ((cfg1.win 2).blk t).view.read (Elt Ideal) (mm (M := 100000) (K := 64) (N := 32) (V c main_v47) (V c main_arg4)) := by
  obtain ⟨-, -, -, -, e0, e1⟩ := idx_facts t
  show (cfg1.win 2).cut (grid1.coords t) ((dat1 V c).after 2 t) = _
  rw [after1_2]
  unfold out1_2
  rw [View.canon_unit_zero hz]
  simp only [View.ld_unit_zero (S := S10000x64) hz, View.ld_unit_zero (S := S64x32) hz]
  funext y
  obtain ⟨p, q, rfl⟩ : ∃ (p : Fin 10000) (q : Fin 32), y = ix2 p q := ⟨y 0, y 1, eq_ix2 y⟩
  have ht : t.val < 10 := Nat.lt_of_lt_of_eq t.isLt N_1
  rw [View.read_apply]
  refine (pay1_apply _ _ p q).trans ?_
  refine Eq.trans ?_ (mm_apply_of (M := 100000) (K := 64) (N := 32) (V c main_v47) (V c main_arg4) _
    ⟨10000 * t.val + p.val, by have := p.isLt; omega⟩ q ?_ ?_).symm
  · refine Finset.sum_congr rfl fun k _ => ?_
    rw [lhs_block V c t (ix2 p k) (ix2 ⟨10000 * t.val + p.val, by have := p.isLt; omega⟩ k) rfl rfl, rhs_block V c t (ix2 k q)]
  · show win1_2.index t (0 : Fin 2) * 10000 + 1 * p.val = 10000 * t.val + p.val; rw [e0]; omega
  · show win1_2.index t (1 : Fin 2) * 32 + 1 * q.val = q.val; rw [e1]; omega

/-- An index of the result array is in point `t`'s block iff each coordinate is in the block's range. -/
theorem mem_blk (t : Fin cfg1.N) (i : S100000x32.Idx) :
    i ∈ ((cfg1.win 2).blk t).view.set ↔ ∀ a : Fin 2, win1_2.index t a * S10000x32.size a ≤ (i a).val ∧ (i a).val < win1_2.index t a * S10000x32.size a + S10000x32.size a := by
  show i ∈ ((View.whole main_v48).slice (win1_2.rect t)).set ↔ _
  rw [View.set_slice_whole, Rect.mem_set_unit]
  exact Iff.rfl

/-- Every row of the result lies in the block of the point numbered by the row's quotient by 10000. -/
theorem cover (i : S100000x32.Idx) : ∃ t : Fin cfg1.N, (cfg1.win 2).flush t = true ∧ i ∈ ((cfg1.win 2).blk t).view.set := by
  have hi0 : (i 0).val < 100000 := (i 0).isLt
  have hi1 : (i 1).val < 32 := (i 1).isLt
  have hN : cfg1.N = 10 := N_1
  refine ⟨⟨(i 0).val / 10000, by rw [hN]; omega⟩, flush1_2 _, ?_⟩
  obtain ⟨-, -, -, -, e0, e1⟩ := idx_facts ⟨(i 0).val / 10000, by rw [hN]; omega⟩
  rw [mem_blk]
  intro a
  match a with
  | ⟨0, _⟩ => show win1_2.index _ (0 : Fin 2) * 10000 ≤ (i 0).val ∧ (i 0).val < win1_2.index _ (0 : Fin 2) * 10000 + 10000; rw [e0]; show (i 0).val / 10000 * 10000 ≤ _ ∧ _ < (i 0).val / 10000 * 10000 + 10000; omega
  | ⟨1, _⟩ => show win1_2.index _ (1 : Fin 2) * 32 ≤ (i 1).val ∧ (i 1).val < win1_2.index _ (1 : Fin 2) * 32 + 32; rw [e1]; omega

/-- The result array after the region: the product of the two arrays the region was entered with. -/
theorem result (c : Dev nD) :
    (dat1 V c).arrAt 2 cfg1.N = mm (M := 100000) (K := 64) (N := 32) (V c main_v47) (V c main_arg4) :=
  (dat1 V c).arrAt_eq_of_cover 2 _ (fun t _ => flushed_eq V c t) (fun i => cover i)

end Cert.Gcn.K.Region1

end
-- ==== Proof.KernelValue.lean ====
/-
  The kernel program's result buffer as ONE function of the argument arrays.

  The program is three stretches of host operations, the first pipelined product, two stretches, the second
  pipelined product, two stretches.  Reading the buffer contents at each boundary from the launch memory on:
  the index lists, the edge weights and the arguments reach the first region as functions of the arguments; the
  region leaves the product of `x` and `W1` and touches nothing else; the next stretches aggregate it along the
  edges and take the maximum with zero; the second region leaves that array's product with `W2`; the last
  stretches aggregate again.  So the result is `gcn` of the two pipelined products.
-/
import proofs.«131801_j80934363726496_2_alg».proof.Proof.Gen.KernelIdeal.Frame
import proofs.«131801_j80934363726496_2_alg».proof.Proof.Stretch0
import proofs.«131801_j80934363726496_2_alg».proof.Proof.Stretch1
import proofs.«131801_j80934363726496_2_alg».proof.Proof.Stretch2
import proofs.«131801_j80934363726496_2_alg».proof.Proof.Keep
import proofs.«131801_j80934363726496_2_alg».proof.Proof.Region0
import proofs.«131801_j80934363726496_2_alg».proof.Proof.Region1

noncomputable section

namespace Cert.Gcn.K

open Idealize.ShloMosaic Idealize.ShloMosaic.TcCoe Idealize.ShloMosaic.StableHlo Idealize.SL.Sem
open Cert.KernelIdeal Cert.KernelIdeal.Gen Cert.Gcn

variable (m : (ℓ : Loc nD τ sig) → Buf (Elt Ideal) ℓ) (ρ : Dev nD → PrngReg)

/-! ## At the first region's entry -/

theorem W3_src (c : Dev nD) : W3 m ρ c (Proc.devRef .tc main_v3) = srcOf (m ((c : Thread nD τ).loc main_arg1)) := by
  show after hostOps0_2 (after hostOps0_1 (after hostOps0 (W0 m ρ c))) _ = _
  rw [s2_src, s1_src, s0_src] <;> rfl

theorem W3_dst (c : Dev nD) : W3 m ρ c (Proc.devRef .tc main_v6) = dstOf (m ((c : Thread nD τ).loc main_arg1)) := by
  show after hostOps0_2 (after hostOps0_1 (after hostOps0 (W0 m ρ c))) _ = _
  rw [s2_dst, s1_dst, s0_dst] <;> rfl

theorem W3_weight (c : Dev nD) : W3 m ρ c (Proc.devRef .tc main_v30) = normOf (m ((c : Thread nD τ).loc main_arg1)) := by
  show after hostOps0_2 (after hostOps0_1 (after hostOps0 (W0 m ρ c))) _ = _
  rw [s2_weight, s1_dinv, s1_src, s1_dst, s0_pos, s0_rsqrt, s0_zero, s0_src, s0_dst] <;> rfl

theorem W3_arg0 (c : Dev nD) : W3 m ρ c (Proc.devRef .tc main_arg0) = m ((c : Thread nD τ).loc main_arg0) := by
  show after hostOps0_2 (after hostOps0_1 (after hostOps0 (W0 m ρ c))) _ = _
  rw [k2_arg0, k1_arg0, k0_arg0] <;> rfl
theorem W3_arg2 (c : Dev nD) : W3 m ρ c (Proc.devRef .tc main_arg2) = m ((c : Thread nD τ).loc main_arg2) := by
  show after hostOps0_2 (after hostOps0_1 (after hostOps0 (W0 m ρ c))) _ = _
  rw [k2_arg2, k1_arg2, k0_arg2] <;> rfl
theorem W3_arg3 (c : Dev nD) : W3 m ρ c (Proc.devRef .tc main_arg3) = m ((c : Thread nD τ).loc main_arg3) := by
  show after hostOps0_2 (after hostOps0_1 (after hostOps0 (W0 m ρ c))) _ = _
  rw [k2_arg3, k1_arg3, k0_arg3] <;> rfl
theorem W3_arg4 (c : Dev nD) : W3 m ρ c (Proc.devRef .tc main_arg4) = m ((c : Thread nD τ).loc main_arg4) := by
  show after hostOps0_2 (after hostOps0_1 (after hostOps0 (W0 m ρ c))) _ = _
  rw [k2_arg4, k1_arg4, k0_arg4] <;> rfl
theorem W3_arg5 (c : Dev nD) : W3 m ρ c (Proc.devRef .tc main_arg5) = m ((c : Thread nD τ).loc main_arg5) := by
  show after hostOps0_2 (after hostOps0_1 (after hostOps0 (W0 m ρ c))) _ = _
  rw [k2_arg5, k1_arg5, k0_arg5] <;> rfl

/-! ## At the first region's exit: the product of `x` and `W1`, everything else as entered -/

theorem W4_prod (c : Dev nD) :
    W4 m ρ c (Proc.devRef .tc main_v31)
      = mm (M := 100000) (K := 128) (N := 64) (m ((c : Thread nD τ).loc main_arg0)) (m ((c : Thread nD τ).loc main_arg2)) := by
  refine (W4_arr m ρ c 2).trans ((Region0.result (V3 m ρ) c).trans ?_)
  rw [show V3 m ρ c main_arg0 = m ((c : Thread nD τ).loc main_arg0) from W3_arg0 m ρ c,
    show V3 m ρ c main_arg2 = m ((c : Thread nD τ).loc main_arg2) from W3_arg2 m ρ c]

theorem W4_src (c : Dev nD) : W4 m ρ c (Proc.devRef .tc main_v3) = srcOf (m ((c : Thread nD τ).loc main_arg1)) :=
  (W4_of_ne m ρ c main_v3 (by decide)).trans (W3_src m ρ c)
theorem W4_dst (c : Dev nD) : W4 m ρ c (Proc.devRef .tc main_v6) = dstOf (m ((c : Thread nD τ).loc main_arg1)) :=
  (W4_of_ne m ρ c main_v6 (by decide)).trans (W3_dst m ρ c)
theorem W4_weight (c : Dev nD) : W4 m ρ c (Proc.devRef .tc main_v30) = normOf (m ((c : Thread nD τ).loc main_arg1)) :=
  (W4_of_ne m ρ c main_v30 (by decide)).trans (W3_weight m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)

/-! ## At the second region's entry: the first layer -/

/-- The first layer's output, of the arguments. -/
def hidden (c : Dev nD) : (⟨S100000x64, .f32⟩ : BufTy).Contents (Elt Ideal) :=
  relu64 (agg64 (mm (M := 100000) (K := 128) (N := 64) (m ((c : Thread nD τ).loc main_arg0)) (m ((c : Thread nD τ).loc main_arg2)))
    (srcOf (m ((c : Thread nD τ).loc main_arg1))) (dstOf (m ((c : Thread nD τ).loc main_arg1)))
    (normOf (m ((c : Thread nD τ).loc main_arg1))) (m ((c : Thread nD τ).loc main_arg3)))

theorem W6_hidden (c : Dev nD) : W6 m ρ c (Proc.devRef .tc main_v47) = hidden m c := by
  show after hostOps1_1 (after hostOps1 (W4 m ρ c)) _ = _
  rw [s4_relu, s3_agg, W4_prod, W4_src, W4_dst, W4_weight, W4_arg3] <;> rfl

theorem W6_src (c : Dev nD) : W6 m ρ c (Proc.devRef .tc main_v3) = srcOf (m ((c : Thread nD τ).loc main_arg1)) := by
  show after hostOps1_1 (after hostOps1 (W4 m ρ c)) _ = _
  rw [k4_src, k3_src, W4_src]
theorem W6_dst (c : Dev nD) : W6 m ρ c (Proc.devRef .tc main_v6) = dstOf (m ((c : Thread nD τ).loc main_arg1)) := by
  show after hostOps1_1 (after hostOps1 (W4 m ρ c)) _ = _
  rw [k4_dst, k3_dst, W4_dst]
theorem W6_weight (c : Dev nD) : W6 m ρ c (Proc.devRef .tc main_v30) = normOf (m ((c : Thread nD τ).loc main_arg1)) := by
  show after hostOps1_1 (after hostOps1 (W4 m ρ c)) _ = _
  rw [k4_weight, k3_weight, W4_weight]
theorem W6_arg4 (c : Dev nD) : W6 m ρ c (Proc.devRef .tc main_arg4) = m ((c : Thread nD τ).loc main_arg4) := by
  show after hostOps1_1 (after hostOps1 (W4 m ρ c)) _ = _
  rw [k4_arg4, k3_arg4, W4_arg4]
theorem W6_arg5 (c : Dev nD) : W6 m ρ c (Proc.devRef .tc main_arg5) = m ((c : Thread nD τ).loc main_arg5) := by
  show after hostOps1_1 (after hostOps1 (W4 m ρ c)) _ = _
  rw [k4_arg5, k3_arg5, W4_arg5]

/-! ## At the second region's exit: the product of the first layer's output and `W2` -/

theorem W7_prod (c : Dev nD) :
    W7 m ρ c (Proc.devRef .tc main_v48)
      = mm (M := 100000) (K := 64) (N := 32) (hidden m c) (m ((c : Thread nD τ).loc main_arg4)) := by
  refine (W7_arr m ρ c 2).trans ((Region1.result (V6 m ρ) c).trans ?_)
  rw [show V6 m ρ c main_v47 = hidden m c from W6_hidden m ρ c,
    show V6 m ρ c main_arg4 = m ((c : Thread nD τ).loc main_arg4) from W6_arg4 m ρ c]

theorem W7_src (c : Dev nD) : W7 m ρ c (Proc.devRef .tc main_v3) = srcOf (m ((c : Thread nD τ).loc main_arg1)) :=
  (W7_of_ne m ρ c main_v3 (by decide)).trans (W6_src m ρ c)
theorem W7_dst (c : Dev nD) : W7 m ρ c (Proc.devRef .tc main_v6) = dstOf (m ((c : Thread nD τ).loc main_arg1)) :=
  (W7_of_ne m ρ c main_v6 (by decide)).trans (W6_dst m ρ c)
theorem W7_weight (c : Dev nD) : W7 m ρ c (Proc.devRef .tc main_v30) = normOf (m ((c : Thread nD τ).loc main_arg1)) :=
  (W7_of_ne m ρ c main_v30 (by decide)).trans (W6_weight m ρ c)
theorem W7_arg5 (c : Dev nD) : W7 m ρ c (Proc.devRef .tc main_arg5) = m ((c : Thread nD τ).loc main_arg5) :=
  (W7_of_ne m ρ c main_arg5 (by decide)).trans (W6_arg5 m ρ c)

/-! ## The result -/

/-- The kernel program's result: the network over the two pipelined products. -/
theorem W9_out (c : Dev nD) :
    W9 m ρ c (Proc.devRef .tc main_v64)
      = gcn (mm (M := 100000) (K := 128) (N := 64)) (mm (M := 100000) (K := 64) (N := 32))
          (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  show after hostOps2_1 (after hostOps2 (W7 m ρ c)) _ = _
  rw [s6_relu, s5_agg, W7_prod, W7_src, W7_dst, W7_weight, W7_arg5] <;> rfl

end Cert.Gcn.K

end
-- ==== Proof.KernelRun.lean ====
/-
  The kernel program's run with its result buffer NAMED: every weakly fair execution terminates, nothing faulting,
  with the result buffer at the last segment boundary's contents and the argument arrays as launched.  The run is
  the launch of the program's nine segments (a host segment per stretch, a region per pipelined product); the last
  thread state holds every unscoped buffer at the last boundary's contents, and the result buffer is one of them.
-/
import proofs.«131801_j80934363726496_2_alg».proof.Proof.Gen.KernelIdeal.Frame

set_option maxRecDepth 16384

noncomputable section

namespace Cert.Gcn.K

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_named : θ_run defs (onTc (τ := τ) (main (F := F))) ⟨m, fun _ => 0, ρ⟩ (fun r => ∀ c : Dev nD,
      r.2.mem ((c.tc : Thread nD τ).loc main_v64) = W9 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v64 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.Gcn.K

end
-- ==== Proof.RefStretch.lean ====
/-
  The reference's host operations read one stretch at a time, from ANY starting contents `V`: the index lists and
  the first product; the degree's inverse square root; the per-edge weights; the first layer; the second product;
  and the same again for the second layer.  Each stretch's result is the named function of Spec.lean of the
  buffers the stretch reads.
-/
import proofs.«131801_j80934363726496_2_alg».proof.Proof.RefOps
import proofs.«131801_j80934363726496_2_alg».proof.Proof.Spec

noncomputable section

namespace Cert.Gcn.R

open Idealize.ShloMosaic Idealize.ShloMosaic.StableHlo Cert.ReferenceIdeal Cert.ReferenceIdeal.Gen Cert.ReferenceIdeal.RunP Cert.Gcn

variable {F : FTy → Type} [FloatOps F]

theorem r0_src (V : Valuation τ sig (Elt F)) :
    after r0 V (Proc.devRef .tc main_v3) = srcOf (V (Proc.devRef .tc main_arg1)) := by
  unfold srcOf; after_results; rfl

theorem r0_dst (V : Valuation τ sig (Elt F)) :
    after r0 V (Proc.devRef .tc main_v6) = dstOf (V (Proc.devRef .tc main_arg1)) := by
  unfold dstOf; after_results; rfl

theorem r0_dot (V : Valuation τ sig (Elt F)) :
    after r0 V (Proc.devRef .tc main_v7)
      = Host.dotGeneral dot_S100000x128_S128x64_S100000x64_1_0_0_1_n_n none (V (Proc.devRef .tc main_arg0)) (V (Proc.devRef .tc main_arg2)) := by
  after_results

set_option maxHeartbeats 4000000 in
theorem r1_dinv (V : Valuation τ sig (Elt F)) :
    after r1 V (Proc.devRef .tc main_v15)
      = dinvOf (posOf (V (Proc.devRef .tc main_v6))) (Host.rsqrt (degOf (V (Proc.devRef .tc main_v6)))) (constant S_ .f32 0x00000000#32) := by
  unfold dinvOf posOf degOf; after_results_simp <;> rfl

set_option maxHeartbeats 4000000 in
theorem r2_prod (V : Valuation τ sig (Elt F)) :
    after r2 V (Proc.devRef .tc main_v30)
      = edgeProd (V (Proc.devRef .tc main_v15)) (V (Proc.devRef .tc main_v3)) (V (Proc.devRef .tc main_v6)) := by
  unfold edgeProd rowsOf; after_results_simp <;> rfl

set_option maxHeartbeats 4000000 in
theorem r3_layer (V : Valuation τ sig (Elt F)) :
    after r3 V (Proc.devRef .tc main_v47)
      = relu64 (agg64 (V (Proc.devRef .tc main_v7)) (V (Proc.devRef .tc main_v3)) (V (Proc.devRef .tc main_v6))
          (colOf (V (Proc.devRef .tc main_v30))) (V (Proc.devRef .tc main_arg3))) := by
  unfold relu64 agg64 colOf rowsOf; after_results_simp <;> rfl

theorem r4_dot (V : Valuation τ sig (Elt F)) :
    after r4 V (Proc.devRef .tc main_v48)
      = Host.dotGeneral dot_S100000x64_S64x32_S100000x32_1_0_0_1_n_n none (V (Proc.devRef .tc main_v47)) (V (Proc.devRef .tc main_arg4)) := by
  after_results

set_option maxHeartbeats 4000000 in
theorem r5_dinv (V : Valuation τ sig (Elt F)) :
    after r5 V (Proc.devRef .tc main_v56)
      = dinvOf (posOf (V (Proc.devRef .tc main_v6))) (Host.rsqrt (degOf (V (Proc.devRef .tc main_v6)))) (constant S_ .f32 0x00000000#32) := by
  unfold dinvOf posOf degOf; after_results_simp <;> rfl

set_option maxHeartbeats 4000000 in
theorem r6_prod (V : Valuation τ sig (Elt F)) :
    after r6 V (Proc.devRef .tc main_v71)
      = edgeProd (V (Proc.devRef .tc main_v56)) (V (Proc.devRef .tc main_v3)) (V (Proc.devRef .tc main_v6)) := by
  unfold edgeProd rowsOf; after_results_simp <;> rfl

set_option maxHeartbeats 4000000 in
theorem r7_layer (V : Valuation τ sig (Elt F)) :
    after r7 V (Proc.devRef .tc main_v88)
      = relu32 (agg32 (V (Proc.devRef .tc main_v48)) (V (Proc.devRef .tc main_v3)) (V (Proc.devRef .tc main_v6))
          (colOf (V (Proc.devRef .tc main_v71))) (V (Proc.devRef .tc main_arg5))) := by
  unfold relu32 agg32 colOf rowsOf; after_results_simp <;> rfl

end Cert.Gcn.R

end
-- ==== Proof.RefKeep.lean ====
/-
  What each stretch of the reference's host operations leaves untouched: the argument arrays, the two index lists
  and the matrix products pass through every later stretch unchanged.  One statement per stretch and buffer that a
  later stretch reads, from ANY starting contents `V`.
-/
import proofs.«131801_j80934363726496_2_alg».proof.Proof.RefOps

noncomputable section

namespace Cert.Gcn.R

open Idealize.ShloMosaic Idealize.ShloMosaic.StableHlo Cert.ReferenceIdeal Cert.ReferenceIdeal.Gen Cert.ReferenceIdeal.RunP

variable {F : FTy → Type} [FloatOps F]

theorem q0_arg3 (V : Valuation τ sig (Elt F)) :
    after r0 V (Proc.devRef .tc main_arg3) = V (Proc.devRef .tc main_arg3) := by after_results
theorem q0_arg4 (V : Valuation τ sig (Elt F)) :
    after r0 V (Proc.devRef .tc main_arg4) = V (Proc.devRef .tc main_arg4) := by after_results
theorem q0_arg5 (V : Valuation τ sig (Elt F)) :
    after r0 V (Proc.devRef .tc main_arg5) = V (Proc.devRef .tc main_arg5) := by after_results
theorem q1_dot (V : Valuation τ sig (Elt F)) :
    after r1 V (Proc.devRef .tc main_v7) = V (Proc.devRef .tc main_v7) := by after_results
theorem q1_src (V : Valuation τ sig (Elt F)) :
    after r1 V (Proc.devRef .tc main_v3) = V (Proc.devRef .tc main_v3) := by after_results
theorem q1_dst (V : Valuation τ sig (Elt F)) :
    after r1 V (Proc.devRef .tc main_v6) = V (Proc.devRef .tc main_v6) := by after_results
theorem q1_arg3 (V : Valuation τ sig (Elt F)) :
    after r1 V (Proc.devRef .tc main_arg3) = V (Proc.devRef .tc main_arg3) := by after_results
theorem q1_arg4 (V : Valuation τ sig (Elt F)) :
    after r1 V (Proc.devRef .tc main_arg4) = V (Proc.devRef .tc main_arg4) := by after_results
theorem q1_arg5 (V : Valuation τ sig (Elt F)) :
    after r1 V (Proc.devRef .tc main_arg5) = V (Proc.devRef .tc main_arg5) := by after_results
theorem q2_dot (V : Valuation τ sig (Elt F)) :
    after r2 V (Proc.devRef .tc main_v7) = V (Proc.devRef .tc main_v7) := by after_results
theorem q2_src (V : Valuation τ sig (Elt F)) :
    after r2 V (Proc.devRef .tc main_v3) = V (Proc.devRef .tc main_v3) := by after_results
theorem q2_dst (V : Valuation τ sig (Elt F)) :
    after r2 V (Proc.devRef .tc main_v6) = V (Proc.devRef .tc main_v6) := by after_results
theorem q2_arg3 (V : Valuation τ sig (Elt F)) :
    after r2 V (Proc.devRef .tc main_arg3) = V (Proc.devRef .tc main_arg3) := by after_results
theorem q2_arg4 (V : Valuation τ sig (Elt F)) :
    after r2 V (Proc.devRef .tc main_arg4) = V (Proc.devRef .tc main_arg4) := by after_results
theorem q2_arg5 (V : Valuation τ sig (Elt F)) :
    after r2 V (Proc.devRef .tc main_arg5) = V (Proc.devRef .tc main_arg5) := by after_results
theorem q3_src (V : Valuation τ sig (Elt F)) :
    after r3 V (Proc.devRef .tc main_v3) = V (Proc.devRef .tc main_v3) := by after_results
theorem q3_dst (V : Valuation τ sig (Elt F)) :
    after r3 V (Proc.devRef .tc main_v6) = V (Proc.devRef .tc main_v6) := by after_results
theorem q3_arg4 (V : Valuation τ sig (Elt F)) :
    after r3 V (Proc.devRef .tc main_arg4) = V (Proc.devRef .tc main_arg4) := by after_results
theorem q3_arg5 (V : Valuation τ sig (Elt F)) :
    after r3 V (Proc.devRef .tc main_arg5) = V (Proc.devRef .tc main_arg5) := by after_results
theorem q4_src (V : Valuation τ sig (Elt F)) :
    after r4 V (Proc.devRef .tc main_v3) = V (Proc.devRef .tc main_v3) := by after_results
theorem q4_dst (V : Valuation τ sig (Elt F)) :
    after r4 V (Proc.devRef .tc main_v6) = V (Proc.devRef .tc main_v6) := by after_results
theorem q4_arg5 (V : Valuation τ sig (Elt F)) :
    after r4 V (Proc.devRef .tc main_arg5) = V (Proc.devRef .tc main_arg5) := by after_results
theorem q5_dot (V : Valuation τ sig (Elt F)) :
    after r5 V (Proc.devRef .tc main_v48) = V (Proc.devRef .tc main_v48) := by after_results
theorem q5_src (V : Valuation τ sig (Elt F)) :
    after r5 V (Proc.devRef .tc main_v3) = V (Proc.devRef .tc main_v3) := by after_results
theorem q5_dst (V : Valuation τ sig (Elt F)) :
    after r5 V (Proc.devRef .tc main_v6) = V (Proc.devRef .tc main_v6) := by after_results
theorem q5_arg5 (V : Valuation τ sig (Elt F)) :
    after r5 V (Proc.devRef .tc main_arg5) = V (Proc.devRef .tc main_arg5) := by after_results
theorem q6_dot (V : Valuation τ sig (Elt F)) :
    after r6 V (Proc.devRef .tc main_v48) = V (Proc.devRef .tc main_v48) := by after_results
theorem q6_src (V : Valuation τ sig (Elt F)) :
    after r6 V (Proc.devRef .tc main_v3) = V (Proc.devRef .tc main_v3) := by after_results
theorem q6_dst (V : Valuation τ sig (Elt F)) :
    after r6 V (Proc.devRef .tc main_v6) = V (Proc.devRef .tc main_v6) := by after_results
theorem q6_arg5 (V : Valuation τ sig (Elt F)) :
    after r6 V (Proc.devRef .tc main_arg5) = V (Proc.devRef .tc main_arg5) := by after_results

end Cert.Gcn.R

end
-- ==== Proof.RefValue.lean ====
/-
  The reference's result as ONE function of the argument arrays, and its run.

  The eight stretches are read from the last to the first: the second layer's aggregation of the second product,
  whose left operand is the first layer's output, whose aggregation reads the first product; the index lists and the
  edge weights are the same functions of the edge list at both layers (the reference computes the weights twice,
  from the same operations).  So the result is `gcn` of the host's two products.
-/
import proofs.«131801_j80934363726496_2_alg».proof.Proof.RefStretch
import proofs.«131801_j80934363726496_2_alg».proof.Proof.RefKeep
import Idealize.ShloMosaic.Lib.Pipeline.Frame

noncomputable section

namespace Cert.Gcn.R

open Idealize.ShloMosaic Idealize.ShloMosaic.TcCoe Idealize.ShloMosaic.StableHlo Idealize.SL.Sem
open Cert.ReferenceIdeal Cert.ReferenceIdeal.Gen Cert.ReferenceIdeal.RunP Cert.Gcn

variable {F : FTy → Type} [FloatOps F]

/-- The reference's result buffer after its 119 operations, from any starting contents. -/
theorem out_eq (V : Valuation τ sig (Elt F)) :
    after ops V (Proc.devRef .tc main_v88)
      = gcn (fun l r => Host.dotGeneral dot_S100000x128_S128x64_S100000x64_1_0_0_1_n_n none l r)
          (fun l r => Host.dotGeneral dot_S100000x64_S64x32_S100000x32_1_0_0_1_n_n none l r)
          (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [ops_eq]
  simp only [StableHlo.after_append]
  rw [r7_layer]
  rw [r6_prod, q6_dot, q6_src, q6_dst, q6_arg5]
  rw [r5_dinv, q5_dot, q5_src, q5_dst, q5_arg5]
  rw [r4_dot, q4_src, q4_dst, q4_arg5]
  rw [r3_layer, q3_src, q3_dst, q3_arg4, q3_arg5]
  rw [r2_prod, q2_dot, q2_src, q2_dst, q2_arg3, q2_arg4, q2_arg5]
  rw [r1_dinv, q1_dot, q1_src, q1_dst, q1_arg3, q1_arg4, q1_arg5]
  rw [r0_dot, r0_src, r0_dst, q0_arg3, q0_arg4, q0_arg5]
  rfl

set_option maxHeartbeats 8000000 in
/-- On every device, from any memory with zero counters: every weakly fair execution of the reference terminates with
    its result at the network over the host's products of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v88)
        = gcn (fun l r => Host.dotGeneral dot_S100000x128_S128x64_S100000x64_1_0_0_1_n_n none l r)
            (fun l r => Host.dotGeneral dot_S100000x64_S64x32_S100000x32_1_0_0_1_n_n none l r)
            (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v88).trans (out_eq (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_after m ρ)

end Cert.Gcn.R

end
-- ==== Proof.Bridge.lean ====
/-
  The host's matrix products are the pipelined ones.

  At an entry (r, c) the host's plain product of an M×K by a K×N matrix is the sum over k of A(r, k) · B(k, c) —
  the same sum the pipelined product leaves, block by block, in its result array.  So the network over the host's
  two products is the network over the pipelined ones.
-/
import proofs.«131801_j80934363726496_2_alg».proof.Proof.Gen.ReferenceIdeal
import proofs.«131801_j80934363726496_2_alg».proof.Proof.Spec
import proofs.«131801_j80934363726496_2_alg».proof.Proof.Product

noncomputable section

namespace Cert.Gcn

open Idealize.ShloMosaic Idealize.ShloMosaic.ValueIdx

/-- The host's first product, entry by entry. -/
theorem dot1_eq :
    (fun (l : (⟨Cert.KernelIdeal.S100000x128, .f32⟩ : BufTy).Contents (Elt Ideal))
        (r : (⟨Cert.KernelIdeal.S128x64, .f32⟩ : BufTy).Contents (Elt Ideal)) =>
      (Host.dotGeneral (F := Ideal) (φ₁ := .f32) (φ₂ := .f32) Cert.ReferenceIdeal.dot_S100000x128_S128x64_S100000x64_1_0_0_1_n_n none l r :
        (⟨Cert.KernelIdeal.S100000x64, .f32⟩ : BufTy).Contents (Elt Ideal)))
      = mm (M := 100000) (K := 128) (N := 64) := by
  funext l r i
  obtain ⟨p, q, rfl⟩ : ∃ (p : Fin 100000) (q : Fin 64), i = ix2 p q := ⟨i 0, i 1, eq_ix2 i⟩
  refine (Ideal.dotGeneral_apply Cert.ReferenceIdeal.dot_S100000x128_S128x64_S100000x64_1_0_0_1_n_n none .single l r (ix2 p q)).trans ?_
  exact LibMatmulNN.contr_sum Cert.ReferenceIdeal.dot_S100000x128_S128x64_S100000x64_1_0_0_1_n_n rfl rfl rfl rfl
    (fun _ _ => rfl) (fun _ _ => rfl) l r p q

/-- The host's second product, entry by entry. -/
theorem dot2_eq :
    (fun (l : (⟨Cert.KernelIdeal.S100000x64, .f32⟩ : BufTy).Contents (Elt Ideal))
        (r : (⟨Cert.KernelIdeal.S64x32, .f32⟩ : BufTy).Contents (Elt Ideal)) =>
      (Host.dotGeneral (F := Ideal) (φ₁ := .f32) (φ₂ := .f32) Cert.ReferenceIdeal.dot_S100000x64_S64x32_S100000x32_1_0_0_1_n_n none l r :
        (⟨Cert.KernelIdeal.S100000x32, .f32⟩ : BufTy).Contents (Elt Ideal)))
      = mm (M := 100000) (K := 64) (N := 32) := by
  funext l r i
  obtain ⟨p, q, rfl⟩ : ∃ (p : Fin 100000) (q : Fin 32), i = ix2 p q := ⟨i 0, i 1, eq_ix2 i⟩
  refine (Ideal.dotGeneral_apply Cert.ReferenceIdeal.dot_S100000x64_S64x32_S100000x32_1_0_0_1_n_n none .single l r (ix2 p q)).trans ?_
  exact LibMatmulNN.contr_sum Cert.ReferenceIdeal.dot_S100000x64_S64x32_S100000x32_1_0_0_1_n_n rfl rfl rfl rfl
    (fun _ _ => rfl) (fun _ _ => rfl) l r p q

/-- The network over the host's products is the network over the pipelined products. -/
theorem gcn_host_eq
    (x : (⟨Cert.KernelIdeal.S100000x128, .f32⟩ : BufTy).Contents (Elt Ideal)) (e : (⟨Cert.KernelIdeal.S2x1600000, .i32⟩ : BufTy).Contents (Elt Ideal))
    (w1 : (⟨Cert.KernelIdeal.S128x64, .f32⟩ : BufTy).Contents (Elt Ideal)) (b1 : (⟨Cert.KernelIdeal.S64, .f32⟩ : BufTy).Contents (Elt Ideal))
    (w2 : (⟨Cert.KernelIdeal.S64x32, .f32⟩ : BufTy).Contents (Elt Ideal)) (b2 : (⟨Cert.KernelIdeal.S32, .f32⟩ : BufTy).Contents (Elt Ideal)) :
    gcn (fun l r => Host.dotGeneral (F := Ideal) (φ₁ := .f32) (φ₂ := .f32) Cert.ReferenceIdeal.dot_S100000x128_S128x64_S100000x64_1_0_0_1_n_n none l r)
        (fun l r => Host.dotGeneral (F := Ideal) (φ₁ := .f32) (φ₂ := .f32) Cert.ReferenceIdeal.dot_S100000x64_S64x32_S100000x32_1_0_0_1_n_n none l r) x e w1 b1 w2 b2
      = gcn (mm (M := 100000) (K := 128) (N := 64)) (mm (M := 100000) (K := 64) (N := 32)) x e w1 b1 w2 b2 :=
  congrArg₂ (fun P1 P2 => gcn P1 P2 x e w1 b1 w2 b2) dot1_eq dot2_eq

end Cert.Gcn

end
-- ==== Proof.lean ====
/-
  A two-layer graph convolution: the kernel program computes each layer's linear transform x·W by a pipelined
  matrix product over ten blocks of 10000 rows (operands rounded to bfloat16, accumulated in f32), the reference
  by the host's plain product; everything else — the edge list with self loops appended, the degree
  normalisation dinv(src)·dinv(dst), the gather at the source nodes, the scatter-add at the destination nodes, the
  bias and the maximum with zero — is the same host computation in both programs (the reference computes the
  edge weights once per layer, from the same operations).

  Over the extended reals a change of float format is the identity and a product into a zero accumulator is the
  plain sum over the contracted axis, so each pipelined product leaves, row block by row block, exactly the
  host's product of the same two arrays (Region0, Region1, Bridge).  Both programs' results are then ONE function
  of the argument arrays, `Cert.Gcn.gcn` of the two products (KernelValue for the kernel program, RefValue for the
  reference), and the shared host computation is never opened.  No step uses that the inputs are finite: the
  only laws used are that equal operands give equal results.
-/
import proofs.«131801_j80934363726496_2_alg».proof.Defs
import proofs.«131801_j80934363726496_2_alg».proof.Proof.Gen.Kernel
import proofs.«131801_j80934363726496_2_alg».proof.Proof.Gen.Kernel.Frame
import proofs.«131801_j80934363726496_2_alg».proof.Proof.Gen.KernelIdeal
import proofs.«131801_j80934363726496_2_alg».proof.Proof.Gen.KernelIdeal.Frame
import proofs.«131801_j80934363726496_2_alg».proof.Proof.Gen.ReferenceIdeal
import proofs.«131801_j80934363726496_2_alg».proof.Proof.Gen.Pre_finite_inputs
import proofs.«131801_j80934363726496_2_alg».proof.Proof.KernelValue
import proofs.«131801_j80934363726496_2_alg».proof.Proof.KernelRun
import proofs.«131801_j80934363726496_2_alg».proof.Proof.RefValue
import proofs.«131801_j80934363726496_2_alg».proof.Proof.Bridge

noncomputable section

namespace Cert.Proof

open Idealize.ShloMosaic Idealize.ShloMosaic.TcCoe Idealize.SL.Sem

/-- The kernel program runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.Gcn.R.run (F := Ideal) m ρ)

/-- The ideal pass rewrote nothing. -/
theorem preserves : Cert.preserves_Kernel_KernelIdeal := trivial

/-- Both programs end with the network over the pipelined products of the (agreeing) arguments: the kernel program
    by its run read segment by segment, the reference by its run read stretch by stretch and the host's products
    identified with the pipelined ones. -/
theorem algebraic : Cert.algebraic_KernelIdeal_ReferenceIdeal := by
  intro m ρ m' ρ' _ hagree
  refine ⟨fun c => Cert.Gcn.gcn (Cert.Gcn.mm (M := 100000) (K := 128) (N := 64)) (Cert.Gcn.mm (M := 100000) (K := 64) (N := 32))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.Gcn.K.W9_out m ρ c), (h c).2⟩) (Cert.Gcn.K.run_named (F := Ideal) m ρ)
  · refine (θ_run Cert.ReferenceIdeal.defs _ _).mono (fun _ h c => ⟨(h c).1.trans ?_, (h c).2⟩)
      (Cert.Gcn.R.run (F := Ideal) m' ρ')
    obtain ⟨e0, e1, e2, e3, e4, e5⟩ := hagree c
    rw [e0, e1, e2, e3, e4, e5]
    exact Cert.Gcn.gcn_host_eq _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
